-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x16 : Shape := ⟨3, ![16384, 32, 16]⟩
abbrev S_ : Shape := ⟨0, ![]⟩

class Facts : Prop where
  bcast_S_S16384x32x16 : S_.BroadcastsInDim S16384x32x16 (![] : Fin 0 → Fin S16384x32x16.rank)
  reducesTo_S16384x32x16_S_d0_1_2 : S16384x32x16.ReducesTo [0, 1, 2] S_
  h_S_ : 0 < S_.numel

variable [Facts]

def fn {F : FTy → Type} [FloatOps F] (main_arg0 : FVec F S16384x32x16 .f32) : IVec S_ 1 :=
  let main_v0 : FVec F S16384x32x16 .f32 := Host.absf main_arg0
  let main_cst : FVec F S_ .f32 := constant S_ .f32 0x7F800000#32
  let main_v1 : FVec F S16384x32x16 .f32 := broadcastInDim S16384x32x16 ![] bcast_S_S16384x32x16 main_cst
  let main_v2 : IVec S16384x32x16 1 := cmpf .olt main_v0 main_v1
  let main_c : IVec S_ 1 := constantI S_ 1 1#1
  let main_v3 : IVec S_ 1 := (fun x v => Host.reduce IntOp.andi x v reducesTo_S16384x32x16_S_d0_1_2 h_S_) main_v2 main_c
  main_v3
-- ==== Kernel.lean ====
abbrev S16384x32x16 : Shape := ⟨3, ![16384, 32, 16]⟩
abbrev S16384x496 : Shape := ⟨2, ![16384, 496]⟩
abbrev S512x32x16 : Shape := ⟨3, ![512, 32, 16]⟩
abbrev S512x496 : Shape := ⟨2, ![512, 496]⟩
abbrev S512x1x16 : Shape := ⟨3, ![512, 1, 16]⟩
abbrev S512x31x16 : Shape := ⟨3, ![512, 31, 16]⟩
abbrev S512x31 : Shape := ⟨2, ![512, 31]⟩
abbrev S512x30x16 : Shape := ⟨3, ![512, 30, 16]⟩
abbrev S512x30 : Shape := ⟨2, ![512, 30]⟩
abbrev S512x29x16 : Shape := ⟨3, ![512, 29, 16]⟩
abbrev S512x29 : Shape := ⟨2, ![512, 29]⟩
abbrev S512x28x16 : Shape := ⟨3, ![512, 28, 16]⟩
abbrev S512x28 : Shape := ⟨2, ![512, 28]⟩
abbrev S512x27x16 : Shape := ⟨3, ![512, 27, 16]⟩
abbrev S512x27 : Shape := ⟨2, ![512, 27]⟩
abbrev S512x26x16 : Shape := ⟨3, ![512, 26, 16]⟩
abbrev S512x26 : Shape := ⟨2, ![512, 26]⟩
abbrev S512x25x16 : Shape := ⟨3, ![512, 25, 16]⟩
abbrev S512x25 : Shape := ⟨2, ![512, 25]⟩
abbrev S512x24x16 : Shape := ⟨3, ![512, 24, 16]⟩
abbrev S512x24 : Shape := ⟨2, ![512, 24]⟩
abbrev S512x23x16 : Shape := ⟨3, ![512, 23, 16]⟩
abbrev S512x23 : Shape := ⟨2, ![512, 23]⟩
abbrev S512x22x16 : Shape := ⟨3, ![512, 22, 16]⟩
abbrev S512x22 : Shape := ⟨2, ![512, 22]⟩
abbrev S512x21x16 : Shape := ⟨3, ![512, 21, 16]⟩
abbrev S512x21 : Shape := ⟨2, ![512, 21]⟩
abbrev S512x20x16 : Shape := ⟨3, ![512, 20, 16]⟩
abbrev S512x20 : Shape := ⟨2, ![512, 20]⟩
abbrev S512x19x16 : Shape := ⟨3, ![512, 19, 16]⟩
abbrev S512x19 : Shape := ⟨2, ![512, 19]⟩
abbrev S512x18x16 : Shape := ⟨3, ![512, 18, 16]⟩
abbrev S512x18 : Shape := ⟨2, ![512, 18]⟩
abbrev S512x17x16 : Shape := ⟨3, ![512, 17, 16]⟩
abbrev S512x17 : Shape := ⟨2, ![512, 17]⟩
abbrev S512x16x16 : Shape := ⟨3, ![512, 16, 16]⟩
abbrev S512x16 : Shape := ⟨2, ![512, 16]⟩
abbrev S512x15x16 : Shape := ⟨3, ![512, 15, 16]⟩
abbrev S512x15 : Shape := ⟨2, ![512, 15]⟩
abbrev S512x14x16 : Shape := ⟨3, ![512, 14, 16]⟩
abbrev S512x14 : Shape := ⟨2, ![512, 14]⟩
abbrev S512x13x16 : Shape := ⟨3, ![512, 13, 16]⟩
abbrev S512x13 : Shape := ⟨2, ![512, 13]⟩
abbrev S512x12x16 : Shape := ⟨3, ![512, 12, 16]⟩
abbrev S512x12 : Shape := ⟨2, ![512, 12]⟩
abbrev S512x11x16 : Shape := ⟨3, ![512, 11, 16]⟩
abbrev S512x11 : Shape := ⟨2, ![512, 11]⟩
abbrev S512x10x16 : Shape := ⟨3, ![512, 10, 16]⟩
abbrev S512x10 : Shape := ⟨2, ![512, 10]⟩
abbrev S512x9x16 : Shape := ⟨3, ![512, 9, 16]⟩
abbrev S512x9 : Shape := ⟨2, ![512, 9]⟩
abbrev S512x8x16 : Shape := ⟨3, ![512, 8, 16]⟩
abbrev S512x8 : Shape := ⟨2, ![512, 8]⟩
abbrev S512x7x16 : Shape := ⟨3, ![512, 7, 16]⟩
abbrev S512x7 : Shape := ⟨2, ![512, 7]⟩
abbrev S512x6x16 : Shape := ⟨3, ![512, 6, 16]⟩
abbrev S512x6 : Shape := ⟨2, ![512, 6]⟩
abbrev S512x5x16 : Shape := ⟨3, ![512, 5, 16]⟩
abbrev S512x5 : Shape := ⟨2, ![512, 5]⟩
abbrev S512x4x16 : Shape := ⟨3, ![512, 4, 16]⟩
abbrev S512x4 : Shape := ⟨2, ![512, 4]⟩
abbrev S512x3x16 : Shape := ⟨3, ![512, 3, 16]⟩
abbrev S512x3 : Shape := ⟨2, ![512, 3]⟩
abbrev S512x2x16 : Shape := ⟨3, ![512, 2, 16]⟩
abbrev S512x2 : Shape := ⟨2, ![512, 2]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x32x16, .f32⟩
  | .hbm, ⟨1, _⟩ => ⟨S16384x496, .f32⟩
  | .local _ .vmem, ⟨0, _⟩ => ⟨S512x32x16, .f32⟩
  | .local _ .vmem, ⟨1, _⟩ => ⟨S512x32x16, .f32⟩
  | .local _ .vmem, ⟨2, _⟩ => ⟨S512x496, .f32⟩
  | .local _ .vmem, ⟨3, _⟩ => ⟨S512x496, .f32⟩
  | _, _ => ⟨S16384x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x496 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x32x16_S512x1x16_0_0_0 : ∀ a, (![0, 0, 0] : Fin 3 → Nat) a + S512x1x16.size a ≤ S512x32x16.size a
  h_S512x1x16 : 0 < S512x1x16.numel
  inb_S512x32x16_S512x31x16_0_1_0 : ∀ a, (![0, 1, 0] : Fin 3 → Nat) a + S512x31x16.size a ≤ S512x32x16.size a
  h_S512x31x16 : 0 < S512x31x16.numel
  broadcasts_S512x1x16_S512x31x16 : S512x1x16.Broadcasts S512x31x16
  reduces_S512x31x16_S512x31 : S512x31x16.Reduces [2] S512x31
  inb_S512x496_S512x31_0_0 : ∀ a, (![0, 0] : Fin 2 → Nat) a + S512x31.size a ≤ S512x496.size a
  h_S512x31 : 0 < S512x31.numel
  inb_S512x32x16_S512x1x16_0_1_0 : ∀ a, (![0, 1, 0] : Fin 3 → Nat) a + S512x1x16.size a ≤ S512x32x16.size a
  inb_S512x32x16_S512x30x16_0_2_0 : ∀ a, (![0, 2, 0] : Fin 3 → Nat) a + S512x30x16.size a ≤ S512x32x16.size a
  h_S512x30x16 : 0 < S512x30x16.numel
  broadcasts_S512x1x16_S512x30x16 : S512x1x16.Broadcasts S512x30x16
  reduces_S512x30x16_S512x30 : S512x30x16.Reduces [2] S512x30
  inb_S512x496_S512x30_0_31 : ∀ a, (![0, 31] : Fin 2 → Nat) a + S512x30.size a ≤ S512x496.size a
  h_S512x30 : 0 < S512x30.numel
  inb_S512x32x16_S512x1x16_0_2_0 : ∀ a, (![0, 2, 0] : Fin 3 → Nat) a + S512x1x16.size a ≤ S512x32x16.size a
  inb_S512x32x16_S512x29x16_0_3_0 : ∀ a, (![0, 3, 0] : Fin 3 → Nat) a + S512x29x16.size a ≤ S512x32x16.size a
  h_S512x29x16 : 0 < S512x29x16.numel
  broadcasts_S512x1x16_S512x29x16 : S512x1x16.Broadcasts S512x29x16
  reduces_S512x29x16_S512x29 : S512x29x16.Reduces [2] S512x29
  inb_S512x496_S512x29_0_61 : ∀ a, (![0, 61] : Fin 2 → Nat) a + S512x29.size a ≤ S512x496.size a
  h_S512x29 : 0 < S512x29.numel
  inb_S512x32x16_S512x1x16_0_3_0 : ∀ a, (![0, 3, 0] : Fin 3 → Nat) a + S512x1x16.size a ≤ S512x32x16.size a
  inb_S512x32x16_S512x28x16_0_4_0 : ∀ a, (![0, 4, 0] : Fin 3 → Nat) a + S512x28x16.size a ≤ S512x32x16.size a
  h_S512x28x16 : 0 < S512x28x16.numel
  broadcasts_S512x1x16_S512x28x16 : S512x1x16.Broadcasts S512x28x16
  reduces_S512x28x16_S512x28 : S512x28x16.Reduces [2] S512x28
  inb_S512x496_S512x28_0_90 : ∀ a, (![0, 90] : Fin 2 → Nat) a + S512x28.size a ≤ S512x496.size a
  h_S512x28 : 0 < S512x28.numel
  inb_S512x32x16_S512x1x16_0_4_0 : ∀ a, (![0, 4, 0] : Fin 3 → Nat) a + S512x1x16.size a ≤ S512x32x16.size a
  inb_S512x32x16_S512x27x16_0_5_0 : ∀ a, (![0, 5, 0] : Fin 3 → Nat) a + S512x27x16.size a ≤ S512x32x16.size a
  h_S512x27x16 : 0 < S512x27x16.numel
  broadcasts_S512x1x16_S512x27x16 : S512x1x16.Broadcasts S512x27x16
  reduces_S512x27x16_S512x27 : S512x27x16.Reduces [2] S512x27
  inb_S512x496_S512x27_0_118 : ∀ a, (![0, 118] : Fin 2 → Nat) a + S512x27.size a ≤ S512x496.size a
  h_S512x27 : 0 < S512x27.numel
  inb_S512x32x16_S512x1x16_0_5_0 : ∀ a, (![0, 5, 0] : Fin 3 → Nat) a + S512x1x16.size a ≤ S512x32x16.size a
  inb_S512x32x16_S512x26x16_0_6_0 : ∀ a, (![0, 6, 0] : Fin 3 → Nat) a + S512x26x16.size a ≤ S512x32x16.size a
  h_S512x26x16 : 0 < S512x26x16.numel
  broadcasts_S512x1x16_S512x26x16 : S512x1x16.Broadcasts S512x26x16
  reduces_S512x26x16_S512x26 : S512x26x16.Reduces [2] S512x26
  inb_S512x496_S512x26_0_145 : ∀ a, (![0, 145] : Fin 2 → Nat) a + S512x26.size a ≤ S512x496.size a
  h_S512x26 : 0 < S512x26.numel
  inb_S512x32x16_S512x1x16_0_6_0 : ∀ a, (![0, 6, 0] : Fin 3 → Nat) a + S512x1x16.size a ≤ S512x32x16.size a
  inb_S512x32x16_S512x25x16_0_7_0 : ∀ a, (![0, 7, 0] : Fin 3 → Nat) a + S512x25x16.size a ≤ S512x32x16.size a
  h_S512x25x16 : 0 < S512x25x16.numel
  broadcasts_S512x1x16_S512x25x16 : S512x1x16.Broadcasts S512x25x16
  reduces_S512x25x16_S512x25 : S512x25x16.Reduces [2] S512x25
  inb_S512x496_S512x25_0_171 : ∀ a, (![0, 171] : Fin 2 → Nat) a + S512x25.size a ≤ S512x496.size a
  h_S512x25 : 0 < S512x25.numel
  inb_S512x32x16_S512x1x16_0_7_0 : ∀ a, (![0, 7, 0] : Fin 3 → Nat) a + S512x1x16.size a ≤ S512x32x16.size a
  inb_S512x32x16_S512x24x16_0_8_0 : ∀ a, (![0, 8, 0] : Fin 3 → Nat) a + S512x24x16.size a ≤ S512x32x16.size a
  h_S512x24x16 : 0 < S512x24x16.numel
  broadcasts_S512x1x16_S512x24x16 : S512x1x16.Broadcasts S512x24x16
  reduces_S512x24x16_S512x24 : S512x24x16.Reduces [2] S512x24
  inb_S512x496_S512x24_0_196 : ∀ a, (![0, 196] : Fin 2 → Nat) a + S512x24.size a ≤ S512x496.size a
  h_S512x24 : 0 < S512x24.numel
  inb_S512x32x16_S512x1x16_0_8_0 : ∀ a, (![0, 8, 0] : Fin 3 → Nat) a + S512x1x16.size a ≤ S512x32x16.size a
  inb_S512x32x16_S512x23x16_0_9_0 : ∀ a, (![0, 9, 0] : Fin 3 → Nat) a + S512x23x16.size a ≤ S512x32x16.size a
  h_S512x23x16 : 0 < S512x23x16.numel
  broadcasts_S512x1x16_S512x23x16 : S512x1x16.Broadcasts S512x23x16
  reduces_S512x23x16_S512x23 : S512x23x16.Reduces [2] S512x23
  inb_S512x496_S512x23_0_220 : ∀ a, (![0, 220] : Fin 2 → Nat) a + S512x23.size a ≤ S512x496.size a
  h_S512x23 : 0 < S512x23.numel
  inb_S512x32x16_S512x1x16_0_9_0 : ∀ a, (![0, 9, 0] : Fin 3 → Nat) a + S512x1x16.size a ≤ S512x32x16.size a
  inb_S512x32x16_S512x22x16_0_10_0 : ∀ a, (![0, 10, 0] : Fin 3 → Nat) a + S512x22x16.size a ≤ S512x32x16.size a
  h_S512x22x16 : 0 < S512x22x16.numel
  broadcasts_S512x1x16_S512x22x16 : S512x1x16.Broadcasts S512x22x16
  reduces_S512x22x16_S512x22 : S512x22x16.Reduces [2] S512x22
  inb_S512x496_S512x22_0_243 : ∀ a, (![0, 243] : Fin 2 → Nat) a + S512x22.size a ≤ S512x496.size a
  h_S512x22 : 0 < S512x22.numel
  inb_S512x32x16_S512x1x16_0_10_0 : ∀ a, (![0, 10, 0] : Fin 3 → Nat) a + S512x1x16.size a ≤ S512x32x16.size a
  inb_S512x32x16_S512x21x16_0_11_0 : ∀ a, (![0, 11, 0] : Fin 3 → Nat) a + S512x21x16.size a ≤ S512x32x16.size a
  h_S512x21x16 : 0 < S512x21x16.numel
  broadcasts_S512x1x16_S512x21x16 : S512x1x16.Broadcasts S512x21x16
  reduces_S512x21x16_S512x21 : S512x21x16.Reduces [2] S512x21
  inb_S512x496_S512x21_0_265 : ∀ a, (![0, 265] : Fin 2 → Nat) a + S512x21.size a ≤ S512x496.size a
  h_S512x21 : 0 < S512x21.numel
  inb_S512x32x16_S512x1x16_0_11_0 : ∀ a, (![0, 11, 0] : Fin 3 → Nat) a + S512x1x16.size a ≤ S512x32x16.size a
  inb_S512x32x16_S512x20x16_0_12_0 : ∀ a, (![0, 12, 0] : Fin 3 → Nat) a + S512x20x16.size a ≤ S512x32x16.size a
  h_S512x20x16 : 0 < S512x20x16.numel
  broadcasts_S512x1x16_S512x20x16 : S512x1x16.Broadcasts S512x20x16
  reduces_S512x20x16_S512x20 : S512x20x16.Reduces [2] S512x20
  inb_S512x496_S512x20_0_286 : ∀ a, (![0, 286] : Fin 2 → Nat) a + S512x20.size a ≤ S512x496.size a
  h_S512x20 : 0 < S512x20.numel
  inb_S512x32x16_S512x1x16_0_12_0 : ∀ a, (![0, 12, 0] : Fin 3 → Nat) a + S512x1x16.size a ≤ S512x32x16.size a
  inb_S512x32x16_S512x19x16_0_13_0 : ∀ a, (![0, 13, 0] : Fin 3 → Nat) a + S512x19x16.size a ≤ S512x32x16.size a
  h_S512x19x16 : 0 < S512x19x16.numel
  broadcasts_S512x1x16_S512x19x16 : S512x1x16.Broadcasts S512x19x16
  reduces_S512x19x16_S512x19 : S512x19x16.Reduces [2] S512x19
  inb_S512x496_S512x19_0_306 : ∀ a, (![0, 306] : Fin 2 → Nat) a + S512x19.size a ≤ S512x496.size a
  h_S512x19 : 0 < S512x19.numel
  inb_S512x32x16_S512x1x16_0_13_0 : ∀ a, (![0, 13, 0] : Fin 3 → Nat) a + S512x1x16.size a ≤ S512x32x16.size a
  inb_S512x32x16_S512x18x16_0_14_0 : ∀ a, (![0, 14, 0] : Fin 3 → Nat) a + S512x18x16.size a ≤ S512x32x16.size a
  h_S512x18x16 : 0 < S512x18x16.numel
  broadcasts_S512x1x16_S512x18x16 : S512x1x16.Broadcasts S512x18x16
  reduces_S512x18x16_S512x18 : S512x18x16.Reduces [2] S512x18
  inb_S512x496_S512x18_0_325 : ∀ a, (![0, 325] : Fin 2 → Nat) a + S512x18.size a ≤ S512x496.size a
  h_S512x18 : 0 < S512x18.numel
  inb_S512x32x16_S512x1x16_0_14_0 : ∀ a, (![0, 14, 0] : Fin 3 → Nat) a + S512x1x16.size a ≤ S512x32x16.size a
  inb_S512x32x16_S512x17x16_0_15_0 : ∀ a, (![0, 15, 0] : Fin 3 → Nat) a + S512x17x16.size a ≤ S512x32x16.size a
  h_S512x17x16 : 0 < S512x17x16.numel
  broadcasts_S512x1x16_S512x17x16 : S512x1x16.Broadcasts S512x17x16
  reduces_S512x17x16_S512x17 : S512x17x16.Reduces [2] S512x17
  inb_S512x496_S512x17_0_343 : ∀ a, (![0, 343] : Fin 2 → Nat) a + S512x17.size a ≤ S512x496.size a
  h_S512x17 : 0 < S512x17.numel
  inb_S512x32x16_S512x1x16_0_15_0 : ∀ a, (![0, 15, 0] : Fin 3 → Nat) a + S512x1x16.size a ≤ S512x32x16.size a
  inb_S512x32x16_S512x16x16_0_16_0 : ∀ a, (![0, 16, 0] : Fin 3 → Nat) a + S512x16x16.size a ≤ S512x32x16.size a
  h_S512x16x16 : 0 < S512x16x16.numel
  broadcasts_S512x1x16_S512x16x16 : S512x1x16.Broadcasts S512x16x16
  reduces_S512x16x16_S512x16 : S512x16x16.Reduces [2] S512x16
  inb_S512x496_S512x16_0_360 : ∀ a, (![0, 360] : Fin 2 → Nat) a + S512x16.size a ≤ S512x496.size a
  h_S512x16 : 0 < S512x16.numel
  inb_S512x32x16_S512x1x16_0_16_0 : ∀ a, (![0, 16, 0] : Fin 3 → Nat) a + S512x1x16.size a ≤ S512x32x16.size a
  inb_S512x32x16_S512x15x16_0_17_0 : ∀ a, (![0, 17, 0] : Fin 3 → Nat) a + S512x15x16.size a ≤ S512x32x16.size a
  h_S512x15x16 : 0 < S512x15x16.numel
  broadcasts_S512x1x16_S512x15x16 : S512x1x16.Broadcasts S512x15x16
  reduces_S512x15x16_S512x15 : S512x15x16.Reduces [2] S512x15
  inb_S512x496_S512x15_0_376 : ∀ a, (![0, 376] : Fin 2 → Nat) a + S512x15.size a ≤ S512x496.size a
  h_S512x15 : 0 < S512x15.numel
  inb_S512x32x16_S512x1x16_0_17_0 : ∀ a, (![0, 17, 0] : Fin 3 → Nat) a + S512x1x16.size a ≤ S512x32x16.size a
  inb_S512x32x16_S512x14x16_0_18_0 : ∀ a, (![0, 18, 0] : Fin 3 → Nat) a + S512x14x16.size a ≤ S512x32x16.size a
  h_S512x14x16 : 0 < S512x14x16.numel
  broadcasts_S512x1x16_S512x14x16 : S512x1x16.Broadcasts S512x14x16
  reduces_S512x14x16_S512x14 : S512x14x16.Reduces [2] S512x14
  inb_S512x496_S512x14_0_391 : ∀ a, (![0, 391] : Fin 2 → Nat) a + S512x14.size a ≤ S512x496.size a
  h_S512x14 : 0 < S512x14.numel
  inb_S512x32x16_S512x1x16_0_18_0 : ∀ a, (![0, 18, 0] : Fin 3 → Nat) a + S512x1x16.size a ≤ S512x32x16.size a
  inb_S512x32x16_S512x13x16_0_19_0 : ∀ a, (![0, 19, 0] : Fin 3 → Nat) a + S512x13x16.size a ≤ S512x32x16.size a
  h_S512x13x16 : 0 < S512x13x16.numel
  broadcasts_S512x1x16_S512x13x16 : S512x1x16.Broadcasts S512x13x16
  reduces_S512x13x16_S512x13 : S512x13x16.Reduces [2] S512x13
  inb_S512x496_S512x13_0_405 : ∀ a, (![0, 405] : Fin 2 → Nat) a + S512x13.size a ≤ S512x496.size a
  h_S512x13 : 0 < S512x13.numel
  inb_S512x32x16_S512x1x16_0_19_0 : ∀ a, (![0, 19, 0] : Fin 3 → Nat) a + S512x1x16.size a ≤ S512x32x16.size a
  inb_S512x32x16_S512x12x16_0_20_0 : ∀ a, (![0, 20, 0] : Fin 3 → Nat) a + S512x12x16.size a ≤ S512x32x16.size a
  h_S512x12x16 : 0 < S512x12x16.numel
  broadcasts_S512x1x16_S512x12x16 : S512x1x16.Broadcasts S512x12x16
  reduces_S512x12x16_S512x12 : S512x12x16.Reduces [2] S512x12
  inb_S512x496_S512x12_0_418 : ∀ a, (![0, 418] : Fin 2 → Nat) a + S512x12.size a ≤ S512x496.size a
  h_S512x12 : 0 < S512x12.numel
  inb_S512x32x16_S512x1x16_0_20_0 : ∀ a, (![0, 20, 0] : Fin 3 → Nat) a + S512x1x16.size a ≤ S512x32x16.size a
  inb_S512x32x16_S512x11x16_0_21_0 : ∀ a, (![0, 21, 0] : Fin 3 → Nat) a + S512x11x16.size a ≤ S512x32x16.size a
  h_S512x11x16 : 0 < S512x11x16.numel
  broadcasts_S512x1x16_S512x11x16 : S512x1x16.Broadcasts S512x11x16
  reduces_S512x11x16_S512x11 : S512x11x16.Reduces [2] S512x11
  inb_S512x496_S512x11_0_430 : ∀ a, (![0, 430] : Fin 2 → Nat) a + S512x11.size a ≤ S512x496.size a
  h_S512x11 : 0 < S512x11.numel
  inb_S512x32x16_S512x1x16_0_21_0 : ∀ a, (![0, 21, 0] : Fin 3 → Nat) a + S512x1x16.size a ≤ S512x32x16.size a
  inb_S512x32x16_S512x10x16_0_22_0 : ∀ a, (![0, 22, 0] : Fin 3 → Nat) a + S512x10x16.size a ≤ S512x32x16.size a
  h_S512x10x16 : 0 < S512x10x16.numel
  broadcasts_S512x1x16_S512x10x16 : S512x1x16.Broadcasts S512x10x16
  reduces_S512x10x16_S512x10 : S512x10x16.Reduces [2] S512x10
  inb_S512x496_S512x10_0_441 : ∀ a, (![0, 441] : Fin 2 → Nat) a + S512x10.size a ≤ S512x496.size a
  h_S512x10 : 0 < S512x10.numel
  inb_S512x32x16_S512x1x16_0_22_0 : ∀ a, (![0, 22, 0] : Fin 3 → Nat) a + S512x1x16.size a ≤ S512x32x16.size a
  inb_S512x32x16_S512x9x16_0_23_0 : ∀ a, (![0, 23, 0] : Fin 3 → Nat) a + S512x9x16.size a ≤ S512x32x16.size a
  h_S512x9x16 : 0 < S512x9x16.numel
  broadcasts_S512x1x16_S512x9x16 : S512x1x16.Broadcasts S512x9x16
  reduces_S512x9x16_S512x9 : S512x9x16.Reduces [2] S512x9
  inb_S512x496_S512x9_0_451 : ∀ a, (![0, 451] : Fin 2 → Nat) a + S512x9.size a ≤ S512x496.size a
  h_S512x9 : 0 < S512x9.numel
  inb_S512x32x16_S512x1x16_0_23_0 : ∀ a, (![0, 23, 0] : Fin 3 → Nat) a + S512x1x16.size a ≤ S512x32x16.size a
  inb_S512x32x16_S512x8x16_0_24_0 : ∀ a, (![0, 24, 0] : Fin 3 → Nat) a + S512x8x16.size a ≤ S512x32x16.size a
  h_S512x8x16 : 0 < S512x8x16.numel
  broadcasts_S512x1x16_S512x8x16 : S512x1x16.Broadcasts S512x8x16
  reduces_S512x8x16_S512x8 : S512x8x16.Reduces [2] S512x8
  inb_S512x496_S512x8_0_460 : ∀ a, (![0, 460] : Fin 2 → Nat) a + S512x8.size a ≤ S512x496.size a
  h_S512x8 : 0 < S512x8.numel
  inb_S512x32x16_S512x1x16_0_24_0 : ∀ a, (![0, 24, 0] : Fin 3 → Nat) a + S512x1x16.size a ≤ S512x32x16.size a
  inb_S512x32x16_S512x7x16_0_25_0 : ∀ a, (![0, 25, 0] : Fin 3 → Nat) a + S512x7x16.size a ≤ S512x32x16.size a
  h_S512x7x16 : 0 < S512x7x16.numel
  broadcasts_S512x1x16_S512x7x16 : S512x1x16.Broadcasts S512x7x16
  reduces_S512x7x16_S512x7 : S512x7x16.Reduces [2] S512x7
  inb_S512x496_S512x7_0_468 : ∀ a, (![0, 468] : Fin 2 → Nat) a + S512x7.size a ≤ S512x496.size a
  h_S512x7 : 0 < S512x7.numel
  inb_S512x32x16_S512x1x16_0_25_0 : ∀ a, (![0, 25, 0] : Fin 3 → Nat) a + S512x1x16.size a ≤ S512x32x16.size a
  inb_S512x32x16_S512x6x16_0_26_0 : ∀ a, (![0, 26, 0] : Fin 3 → Nat) a + S512x6x16.size a ≤ S512x32x16.size a
  h_S512x6x16 : 0 < S512x6x16.numel
  broadcasts_S512x1x16_S512x6x16 : S512x1x16.Broadcasts S512x6x16
  reduces_S512x6x16_S512x6 : S512x6x16.Reduces [2] S512x6
  inb_S512x496_S512x6_0_475 : ∀ a, (![0, 475] : Fin 2 → Nat) a + S512x6.size a ≤ S512x496.size a
  h_S512x6 : 0 < S512x6.numel
  inb_S512x32x16_S512x1x16_0_26_0 : ∀ a, (![0, 26, 0] : Fin 3 → Nat) a + S512x1x16.size a ≤ S512x32x16.size a
  inb_S512x32x16_S512x5x16_0_27_0 : ∀ a, (![0, 27, 0] : Fin 3 → Nat) a + S512x5x16.size a ≤ S512x32x16.size a
  h_S512x5x16 : 0 < S512x5x16.numel
  broadcasts_S512x1x16_S512x5x16 : S512x1x16.Broadcasts S512x5x16
  reduces_S512x5x16_S512x5 : S512x5x16.Reduces [2] S512x5
  inb_S512x496_S512x5_0_481 : ∀ a, (![0, 481] : Fin 2 → Nat) a + S512x5.size a ≤ S512x496.size a
  h_S512x5 : 0 < S512x5.numel
  inb_S512x32x16_S512x1x16_0_27_0 : ∀ a, (![0, 27, 0] : Fin 3 → Nat) a + S512x1x16.size a ≤ S512x32x16.size a
  inb_S512x32x16_S512x4x16_0_28_0 : ∀ a, (![0, 28, 0] : Fin 3 → Nat) a + S512x4x16.size a ≤ S512x32x16.size a
  h_S512x4x16 : 0 < S512x4x16.numel
  broadcasts_S512x1x16_S512x4x16 : S512x1x16.Broadcasts S512x4x16
  reduces_S512x4x16_S512x4 : S512x4x16.Reduces [2] S512x4
  inb_S512x496_S512x4_0_486 : ∀ a, (![0, 486] : Fin 2 → Nat) a + S512x4.size a ≤ S512x496.size a
  h_S512x4 : 0 < S512x4.numel
  inb_S512x32x16_S512x1x16_0_28_0 : ∀ a, (![0, 28, 0] : Fin 3 → Nat) a + S512x1x16.size a ≤ S512x32x16.size a
  inb_S512x32x16_S512x3x16_0_29_0 : ∀ a, (![0, 29, 0] : Fin 3 → Nat) a + S512x3x16.size a ≤ S512x32x16.size a
  h_S512x3x16 : 0 < S512x3x16.numel
  broadcasts_S512x1x16_S512x3x16 : S512x1x16.Broadcasts S512x3x16
  reduces_S512x3x16_S512x3 : S512x3x16.Reduces [2] S512x3
  inb_S512x496_S512x3_0_490 : ∀ a, (![0, 490] : Fin 2 → Nat) a + S512x3.size a ≤ S512x496.size a
  h_S512x3 : 0 < S512x3.numel
  inb_S512x32x16_S512x1x16_0_29_0 : ∀ a, (![0, 29, 0] : Fin 3 → Nat) a + S512x1x16.size a ≤ S512x32x16.size a
  inb_S512x32x16_S512x2x16_0_30_0 : ∀ a, (![0, 30, 0] : Fin 3 → Nat) a + S512x2x16.size a ≤ S512x32x16.size a
  h_S512x2x16 : 0 < S512x2x16.numel
  broadcasts_S512x1x16_S512x2x16 : S512x1x16.Broadcasts S512x2x16
  reduces_S512x2x16_S512x2 : S512x2x16.Reduces [2] S512x2
  inb_S512x496_S512x2_0_493 : ∀ a, (![0, 493] : Fin 2 → Nat) a + S512x2.size a ≤ S512x496.size a
  h_S512x2 : 0 < S512x2.numel
  inb_S512x32x16_S512x1x16_0_30_0 : ∀ a, (![0, 30, 0] : Fin 3 → Nat) a + S512x1x16.size a ≤ S512x32x16.size a
  inb_S512x32x16_S512x1x16_0_31_0 : ∀ a, (![0, 31, 0] : Fin 3 → Nat) a + S512x1x16.size a ≤ S512x32x16.size a
  reduces_S512x1x16_S512x1 : S512x1x16.Reduces [2] S512x1
  inb_S512x496_S512x1_0_495 : ∀ a, (![0, 495] : Fin 2 → Nat) a + S512x1.size a ≤ S512x496.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x16.size a ≤ S16384x32x16.size a
  hwx0_0 : ∀ i : grid0.Coords, EltTy.bits .f32 = 32 ∨ (Rect.block (s := S16384x32x16) S512x32x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x496.size a ≤ S16384x496.size a
  hwx0_1 : ∀ i : grid0.Coords, EltTy.bits .f32 = 32 ∨ (Rect.block (s := S16384x496) S512x496.size (cc0_transform_1 i) (hinb0_1 i)).WholeWords (EltTy.packing .f32)

variable [Facts₀]

abbrev win0_0 : Pipeline.Window sig grid0 :=
  Pipeline.Window.ofSpec (Memref.whole main_arg0) S512x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x496.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x16 : Shape := ⟨3, ![16384, 32, 16]⟩
abbrev S496 : Shape := ⟨1, ![496]⟩
abbrev S_ : Shape := ⟨0, ![]⟩
abbrev S496x1 : Shape := ⟨2, ![496, 1]⟩
abbrev S16384x496x16 : Shape := ⟨3, ![16384, 496, 16]⟩
abbrev S16384x496 : Shape := ⟨2, ![16384, 496]⟩

abbrev nBuf : Space → Nat
  | .hbm => 20
  | .vmem => 0
  | .smem => 0
  | _ => 0

abbrev bufTy : (tb : Table) → Fin (tcTables nBuf tb) → BufTy
  | .hbm, ⟨0, _⟩ => ⟨S16384x32x16, .f32⟩
  | .hbm, ⟨1, _⟩ => ⟨S496, .i32⟩
  | .hbm, ⟨2, _⟩ => ⟨S496, .i1⟩
  | .hbm, ⟨3, _⟩ => ⟨S496, .i32⟩
  | .hbm, ⟨4, _⟩ => ⟨S496, .i1⟩
  | .hbm, ⟨5, _⟩ => ⟨S_, .i32⟩
  | .hbm, ⟨6, _⟩ => ⟨S496, .i32⟩
  | .hbm, ⟨7, _⟩ => ⟨S496, .i32⟩
  | .hbm, ⟨8, _⟩ => ⟨S496, .i32⟩
  | .hbm, ⟨9, _⟩ => ⟨S496x1, .i32⟩
  | .hbm, ⟨10, _⟩ => ⟨S16384x496x16, .f32⟩
  | .hbm, ⟨11, _⟩ => ⟨S_, .i32⟩
  | .hbm, ⟨12, _⟩ => ⟨S496, .i32⟩
  | .hbm, ⟨13, _⟩ => ⟨S496, .i32⟩
  | .hbm, ⟨14, _⟩ => ⟨S496, .i32⟩
  | .hbm, ⟨15, _⟩ => ⟨S496x1, .i32⟩
  | .hbm, ⟨16, _⟩ => ⟨S16384x496x16, .f32⟩
  | .hbm, ⟨17, _⟩ => ⟨S16384x496x16, .f32⟩
  | .hbm, ⟨18, _⟩ => ⟨S_, .f32⟩
  | .hbm, ⟨19, _⟩ => ⟨S16384x496, .f32⟩
  | _, _ => ⟨S16384x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S496 : S_.BroadcastsInDim S496 (![] : Fin 0 → Fin S496.rank)
  bcast_S496_S496x1_0 : S496.BroadcastsInDim S496x1 (![0] : Fin 1 → Fin S496x1.rank)
  reducesTo_S16384x496x16_S16384x496_d2 : S16384x496x16.ReducesTo [2] S16384x496
  h_S_ : 0 < S_.numel
  gather_S16384x32x16_S496x1_S16384x496x16_02_1_n_n_1_1_16384116_wf : GatherDims.WF S16384x32x16 S496x1 S16384x496x16 [0, 2] [1] [] [1] [] 1 ![16384, 1, 16]

variable [Facts₀]

def gather_S16384x32x16_S496x1_S16384x496x16_02_1_n_n_1_1_16384116 : GatherDims S16384x32x16 S496x1 S16384x496x16 where
  offsetDims := [0, 2]
  collapsedSliceDims := [1]
  operandBatchingDims := []
  startIndicesBatchingDims := []
  startIndexMap := [1]
  indexVectorDim := 1
  sliceSizes := ![16384, 1, 16]
  wf := gather_S16384x32x16_S496x1_S16384x496x16_02_1_n_n_1_1_16384116_wf

class Facts : Prop extends Facts₀ where

variable [Facts]
-- ==== Proof.PairSpec.lean ====
/-
  The function both programs compute.  For an array x of shape [B, 32, 16] (B rows, 32 fields, an embedding of 16
  numbers per field) and a pair index p < 496, the result at (b, p) is the inner product over the embedding axis of
  the two fields of row b that p names:

      pairs x (b, p) = ∑ d < 16, x (b, rowOf p, d) * x (b, colOf p, d).

  The two fields of a pair are read off the reference's two constant tables of 496 words exactly as a gather reads a
  start index on the field axis: the word taken as a signed integer and clamped into 0 … 31 (`fieldN`).  The tables
  list the pairs i < j in the order (0,1), (0,2), …, (0,31), (1,2), …: the pairs whose smaller field is i fill the
  31 - i consecutive columns from `slabStart i`, and column `slabStart i + q` is the pair (i, i + 1 + q)
  (`slab_fields`, decided over the 496 entries).
-/
import proofs.«137883_j86517821214535_2_alg».proof.ReferenceIdeal
import Idealize.ShloMosaic.PureOps.Ideal
import Idealize.ShloMosaic.Lib.ValueIdx

noncomputable section

namespace Cert.PairSpec

open Idealize.ShloMosaic Idealize.ShloMosaic.ValueIdx Cert.ReferenceIdeal

/-- A start word as a gather reads it on the field axis: signed, clamped into 0 … 31. -/
def fieldN (w : BitVec 32) : ℕ := min w.toInt.toNat 31

theorem fieldN_lt (w : BitVec 32) : fieldN w < 32 := by unfold fieldN; omega

/-- The smaller field of pair `p`: the first table's word. -/
def rowOf (p : Fin 496) : Fin 32 := ⟨fieldN (lit0t p.val), fieldN_lt _⟩
/-- The larger field of pair `p`: the second table's word. -/
def colOf (p : Fin 496) : Fin 32 := ⟨fieldN (lit1t p.val), fieldN_lt _⟩

/-- The inner product over the embedding axis of fields `i` and `j` of row `b`. -/
def dot16 {B : ℕ} (x : (⟨3, ![B, 32, 16]⟩ : Shape).Idx → EReal) (b : Fin B) (i j : Fin 32) : EReal :=
  ∑ d : Fin 16, x (ix3 b i d) * x (ix3 b j d)

/-- The result: at (b, p) the inner product of the two fields of row `b` that pair `p` names. -/
def pairs {B : ℕ} (x : (⟨3, ![B, 32, 16]⟩ : Shape).Idx → EReal) : (⟨2, ![B, 496]⟩ : Shape).Idx → EReal :=
  fun j => dot16 x (j 0) (rowOf (j 1)) (colOf (j 1))

/-- The first column of the pairs whose smaller field is `i`: the number of pairs with a smaller field below `i`,
    31 + 30 + … + (32 - i). -/
def slabStart (i : ℕ) : ℕ := i * 31 - i * (i - 1) / 2

/-- Column `slabStart i + q` is the pair (i, i + 1 + q), for every smaller field `i` and every `q` with
    i + 1 + q ≤ 31: the tables' 496 entries, each read as the gather reads it. -/
theorem slab_fields : ∀ i q : Fin 31, i.val + q.val < 31 →
    fieldN (lit0t (slabStart i.val + q.val)) = i.val ∧ fieldN (lit1t (slabStart i.val + q.val)) = i.val + 1 + q.val := by
  decide +kernel

/-- The same for a column given by its number. -/
theorem fields_of_slab (i q : ℕ) (h : i + q < 31) (p : Fin 496) (hp : p.val = slabStart i + q) :
    rowOf p = ⟨i, by omega⟩ ∧ colOf p = ⟨i + 1 + q, by omega⟩ := by
  obtain ⟨h0, h1⟩ := slab_fields ⟨i, by omega⟩ ⟨q, by omega⟩ h
  constructor
  · apply Fin.ext; show fieldN (lit0t p.val) = i; rw [hp]; exact h0
  · apply Fin.ext; show fieldN (lit1t p.val) = i + 1 + q; rw [hp]; exact h1

end Cert.PairSpec

end
-- ==== Proof.SlabDot.lean ====
/-
  One slab of the kernel's result block, read at an index, at the exact values.

  The kernel fills its [512, 496] block slab by slab: for the smaller field i it loads field i of every row
  ([512, 1, 16]) and the fields i + 1 … 31 ([512, w, 16], w = 31 - i), multiplies the first, repeated along the field
  axis, into the second, sums the products over the embedding axis, and stores the [512, w] result at columns
  slabStart i … slabStart i + w - 1.  At (r, q) that sum is the inner product of fields i and i + 1 + q of row r
  (`slab_dot`; `last_dot` when w = 1 and nothing is repeated), and column slabStart i + q is the pair (i, i + 1 + q),
  so the stored slab is the slab of `pairs` its rectangle names (`slab_piece`, `last_piece`).
-/
import proofs.«137883_j86517821214535_2_alg».proof.Proof.PairSpec
import Idealize.ShloMosaic.PureOps.Ideal.Laws
import Idealize.ShloMosaic.Lib.ValueIdx
import Idealize.ShloMosaic.Lib.Pipeline.Value

noncomputable section

namespace Cert.PairSpec

open Idealize.ShloMosaic Idealize.ShloMosaic.ValueIdx

/-- The input block's shape: 512 rows, 32 fields, 16 numbers each. -/
abbrev SX : Shape := ⟨3, ![512, 32, 16]⟩
/-- The output block's shape: 512 rows, 496 pairs. -/
abbrev SO : Shape := ⟨2, ![512, 496]⟩

/-- Field `i` repeated `w` times, times fields i + 1 … i + w, summed over the embedding axis, at (r, q): the inner
    product of fields i and i + 1 + q of row r. -/
theorem slab_dot (w i : ℕ) (hi : i + 1 + w ≤ 32) (x0 : Vec Ideal SX .f32)
    (inb1 : ∀ a, (![0, i, 0] : Fin 3 → ℕ) a + (![512, 1, 16] : Fin 3 → ℕ) a ≤ SX.size a)
    (inb2 : ∀ a, (![0, i + 1, 0] : Fin 3 → ℕ) a + (![512, w, 16] : Fin 3 → ℕ) a ≤ SX.size a)
    (hb : (⟨3, ![512, 1, 16]⟩ : Shape).Broadcasts ⟨3, ![512, w, 16]⟩)
    (hr : (⟨3, ![512, w, 16]⟩ : Shape).Reduces [2] ⟨2, ![512, w]⟩)
    (hφ : FKind.Formats .f32) (hacc : (0x00000000#32 : BitVec 32) = FKind.add.neutral .f32 hφ)
    (r : Fin 512) (q : Fin w) :
    multiReduction (F := Ideal) .add [2] ⟨2, ![512, w]⟩
      (mulf (broadcastTo ⟨3, ![512, w, 16]⟩ (View.ld (Val := Elt Ideal) (e' := .f32) x0 (Rect.unit ![0, i, 0] ![512, 1, 16] inb1) : FVec Ideal ⟨3, ![512, 1, 16]⟩ .f32) hb)
            (View.ld (Val := Elt Ideal) (e' := .f32) x0 (Rect.unit ![0, i + 1, 0] ![512, w, 16] inb2) : FVec Ideal ⟨3, ![512, w, 16]⟩ .f32)) 0x00000000#32 hr hφ hacc (ix2 r q)
    = dot16 x0 r ⟨i, by omega⟩ ⟨i + 1 + q.val, by omega⟩ := by
  refine (Ideal.multiReduction_add_single _ _ hr hφ hacc (ix2 r q)).trans ?_
  unfold dot16
  refine Finset.sum_congr rfl fun d _ => ?_
  rw [mulf_apply]
  have e1 : broadcastTo ⟨3, ![512, w, 16]⟩ (View.ld (Val := Elt Ideal) (e' := .f32) x0 (Rect.unit ![0, i, 0] ![512, 1, 16] inb1) : FVec Ideal ⟨3, ![512, 1, 16]⟩ .f32) hb (hr.lift (ix2 r q) d)
      = x0 (ix3 r ⟨i, by omega⟩ d) := by
    refine (broadcastTo_apply _ hb _ (ix3 r (0 : Fin 1) (d : Fin 16)) ?_).trans ?_
    · intro a
      match a with
      | ⟨0, _⟩ => exact (if_neg (by decide : ¬ (512 : ℕ) = 1)).symm
      | ⟨1, _⟩ => exact (if_pos (rfl : (1 : ℕ) = 1)).symm
      | ⟨2, _⟩ => exact (if_neg (by decide : ¬ (16 : ℕ) = 1)).symm
    · refine congrArg x0 (funext fun a => Fin.ext ?_)
      match a with
      | ⟨0, _⟩ => show 0 + 1 * r.val = r.val; omega
      | ⟨1, _⟩ => show i + 1 * 0 = i; omega
      | ⟨2, _⟩ => show 0 + 1 * d.val = d.val; omega
  have e2 : (View.ld (Val := Elt Ideal) (e' := .f32) x0 (Rect.unit ![0, i + 1, 0] ![512, w, 16] inb2) : FVec Ideal ⟨3, ![512, w, 16]⟩ .f32) (hr.lift (ix2 r q) d)
      = x0 (ix3 r ⟨i + 1 + q.val, by omega⟩ d) := by
    refine congrArg x0 (funext fun a => Fin.ext ?_)
    match a with
    | ⟨0, _⟩ => show 0 + 1 * r.val = r.val; omega
    | ⟨1, _⟩ => show i + 1 + 1 * q.val = i + 1 + q.val; omega
    | ⟨2, _⟩ => show 0 + 1 * d.val = d.val; omega
  rw [e1, e2]

/-- The last slab has one column and repeats nothing: field `i` times field `i + 1`, summed over the embedding axis. -/
theorem last_dot (i : ℕ) (hi : i + 2 ≤ 32) (x0 : Vec Ideal SX .f32)
    (inb1 : ∀ a, (![0, i, 0] : Fin 3 → ℕ) a + (![512, 1, 16] : Fin 3 → ℕ) a ≤ SX.size a)
    (inb2 : ∀ a, (![0, i + 1, 0] : Fin 3 → ℕ) a + (![512, 1, 16] : Fin 3 → ℕ) a ≤ SX.size a)
    (hr : (⟨3, ![512, 1, 16]⟩ : Shape).Reduces [2] ⟨2, ![512, 1]⟩)
    (hφ : FKind.Formats .f32) (hacc : (0x00000000#32 : BitVec 32) = FKind.add.neutral .f32 hφ)
    (r : Fin 512) (q : Fin 1) :
    multiReduction (F := Ideal) .add [2] ⟨2, ![512, 1]⟩
      (mulf (View.ld (Val := Elt Ideal) (e' := .f32) x0 (Rect.unit ![0, i, 0] ![512, 1, 16] inb1) : FVec Ideal ⟨3, ![512, 1, 16]⟩ .f32)
            (View.ld (Val := Elt Ideal) (e' := .f32) x0 (Rect.unit ![0, i + 1, 0] ![512, 1, 16] inb2) : FVec Ideal ⟨3, ![512, 1, 16]⟩ .f32)) 0x00000000#32 hr hφ hacc (ix2 r q)
    = dot16 x0 r ⟨i, by omega⟩ ⟨i + 1 + q.val, by omega⟩ := by
  refine (Ideal.multiReduction_add_single _ _ hr hφ hacc (ix2 r q)).trans ?_
  unfold dot16
  refine Finset.sum_congr rfl fun d _ => ?_
  rw [mulf_apply]
  have hq : q.val = 0 := by omega
  have e1 : (View.ld (Val := Elt Ideal) (e' := .f32) x0 (Rect.unit ![0, i, 0] ![512, 1, 16] inb1) : FVec Ideal ⟨3, ![512, 1, 16]⟩ .f32) (hr.lift (ix2 r q) d)
      = x0 (ix3 r ⟨i, by omega⟩ d) := by
    refine congrArg x0 (funext fun a => Fin.ext ?_)
    match a with
    | ⟨0, _⟩ => show 0 + 1 * r.val = r.val; omega
    | ⟨1, _⟩ => show i + 1 * q.val = i; omega
    | ⟨2, _⟩ => show 0 + 1 * d.val = d.val; omega
  have e2 : (View.ld (Val := Elt Ideal) (e' := .f32) x0 (Rect.unit ![0, i + 1, 0] ![512, 1, 16] inb2) : FVec Ideal ⟨3, ![512, 1, 16]⟩ .f32) (hr.lift (ix2 r q) d)
      = x0 (ix3 r ⟨i + 1 + q.val, by omega⟩ d) := by
    refine congrArg x0 (funext fun a => Fin.ext ?_)
    match a with
    | ⟨0, _⟩ => show 0 + 1 * r.val = r.val; omega
    | ⟨1, _⟩ => show i + 1 + 1 * q.val = i + 1 + q.val; omega
    | ⟨2, _⟩ => show 0 + 1 * d.val = d.val; omega
  rw [e1, e2]

/-- An inner product of two fields of a row is the entry of `pairs` at the column the store's rectangle gives
    `(r, q)`, when that column is the pair of those two fields. -/
theorem dot_eq_pairs (w i off : ℕ) (hw : i + w = 31) (hoff : off = slabStart i) (x0 : Vec Ideal SX .f32)
    (inbo : ∀ a, (![0, off] : Fin 2 → ℕ) a + (![512, w] : Fin 2 → ℕ) a ≤ SO.size a) (r : Fin 512) (q : Fin w) :
    dot16 x0 r ⟨i, by omega⟩ ⟨i + 1 + q.val, by omega⟩
      = pairs x0 ((Rect.unit (s := SO) ![0, off] ![512, w] inbo).emb (ix2 r q)) := by
  unfold pairs
  have hq := q.isLt
  obtain ⟨f0, f1⟩ := fields_of_slab i q.val (by omega) ((Rect.unit (s := SO) ![0, off] ![512, w] inbo).emb (ix2 r q) 1)
    (by show off + 1 * q.val = slabStart i + q.val; rw [hoff]; omega)
  have e0 : ((Rect.unit (s := SO) ![0, off] ![512, w] inbo).emb (ix2 r q) 0 : Fin 512) = r :=
    Fin.ext (by show 0 + 1 * r.val = r.val; omega)
  rw [f0, f1, e0]

/-- The slab the kernel stores for the smaller field `i` is the slab of `pairs` its rectangle names. -/
theorem slab_piece (w i off : ℕ) (hw : i + w = 31) (hoff : off = slabStart i) (x0 : Vec Ideal SX .f32)
    (inb1 : ∀ a, (![0, i, 0] : Fin 3 → ℕ) a + (![512, 1, 16] : Fin 3 → ℕ) a ≤ SX.size a)
    (inb2 : ∀ a, (![0, i + 1, 0] : Fin 3 → ℕ) a + (![512, w, 16] : Fin 3 → ℕ) a ≤ SX.size a)
    (inbo : ∀ a, (![0, off] : Fin 2 → ℕ) a + (![512, w] : Fin 2 → ℕ) a ≤ SO.size a)
    (hb : (⟨3, ![512, 1, 16]⟩ : Shape).Broadcasts ⟨3, ![512, w, 16]⟩)
    (hr : (⟨3, ![512, w, 16]⟩ : Shape).Reduces [2] ⟨2, ![512, w]⟩)
    (hφ : FKind.Formats .f32) (hacc : (0x00000000#32 : BitVec 32) = FKind.add.neutral .f32 hφ)
    (y : (⟨2, ![512, w]⟩ : Shape).Idx) :
    multiReduction (F := Ideal) .add [2] ⟨2, ![512, w]⟩
      (mulf (broadcastTo ⟨3, ![512, w, 16]⟩ (View.ld (Val := Elt Ideal) (e' := .f32) x0 (Rect.unit ![0, i, 0] ![512, 1, 16] inb1) : FVec Ideal ⟨3, ![512, 1, 16]⟩ .f32) hb)
            (View.ld (Val := Elt Ideal) (e' := .f32) x0 (Rect.unit ![0, i + 1, 0] ![512, w, 16] inb2) : FVec Ideal ⟨3, ![512, w, 16]⟩ .f32)) 0x00000000#32 hr hφ hacc y
    = pairs x0 ((Rect.unit (s := SO) ![0, off] ![512, w] inbo).emb y) := by
  obtain ⟨r, q, rfl⟩ : ∃ (r : Fin 512) (q : Fin w), y = ix2 r q := ⟨y 0, y 1, eq_ix2 y⟩
  rw [slab_dot w i (by omega) x0 inb1 inb2 hb hr hφ hacc r q]
  exact dot_eq_pairs w i off hw hoff x0 inbo r q

/-- The same for the last slab. -/
theorem last_piece (i off : ℕ) (hw : i + 1 = 31) (hoff : off = slabStart i) (x0 : Vec Ideal SX .f32)
    (inb1 : ∀ a, (![0, i, 0] : Fin 3 → ℕ) a + (![512, 1, 16] : Fin 3 → ℕ) a ≤ SX.size a)
    (inb2 : ∀ a, (![0, i + 1, 0] : Fin 3 → ℕ) a + (![512, 1, 16] : Fin 3 → ℕ) a ≤ SX.size a)
    (inbo : ∀ a, (![0, off] : Fin 2 → ℕ) a + (![512, 1] : Fin 2 → ℕ) a ≤ SO.size a)
    (hr : (⟨3, ![512, 1, 16]⟩ : Shape).Reduces [2] ⟨2, ![512, 1]⟩)
    (hφ : FKind.Formats .f32) (hacc : (0x00000000#32 : BitVec 32) = FKind.add.neutral .f32 hφ)
    (y : (⟨2, ![512, 1]⟩ : Shape).Idx) :
    multiReduction (F := Ideal) .add [2] ⟨2, ![512, 1]⟩
      (mulf (View.ld (Val := Elt Ideal) (e' := .f32) x0 (Rect.unit ![0, i, 0] ![512, 1, 16] inb1) : FVec Ideal ⟨3, ![512, 1, 16]⟩ .f32)
            (View.ld (Val := Elt Ideal) (e' := .f32) x0 (Rect.unit ![0, i + 1, 0] ![512, 1, 16] inb2) : FVec Ideal ⟨3, ![512, 1, 16]⟩ .f32)) 0x00000000#32 hr hφ hacc y
    = pairs x0 ((Rect.unit (s := SO) ![0, off] ![512, 1] inbo).emb y) := by
  obtain ⟨r, q, rfl⟩ : ∃ (r : Fin 512) (q : Fin 1), y = ix2 r q := ⟨y 0, y 1, eq_ix2 y⟩
  rw [last_dot i (by omega) x0 inb1 inb2 hr hφ hacc r q]
  exact dot_eq_pairs 1 i off hw hoff x0 inbo r q

end Cert.PairSpec

end
-- ==== Proof.KernelBlocks.lean ====
/-
  The kernel's result array, at the exact values, is `pairs` of its argument array.

  One grid point handles 512 rows.  Its body leaves in the output's staging buffer 31 slabs, one per smaller field
  i = 0 … 30, at columns slabStart i … slabStart i + 30 - i; each slab is the slab of `pairs` of the point's input
  block that its rectangle names (SlabDot), and the slabs cover the block, so the block is `pairs` of the input block
  (`out_block`).  The input block of point t is rows 512 t … 512 t + 511 of the argument and the output block the same
  rows of the result, and `pairs` works row by row (`pairs_rows`), so what point t writes back is block t of `pairs`
  of the whole argument (`flushed_eq`).  The 32 blocks cover the result's 16384 rows (`cover`), hence `final`, `run`.
-/
import proofs.«137883_j86517821214535_2_alg».proof.Proof.Gen.KernelIdeal.Value
import proofs.«137883_j86517821214535_2_alg».proof.Proof.SlabDot
import Idealize.ShloMosaic.Lib.Pipeline.Value
import Idealize.ShloMosaic.Lib.Tactic

noncomputable section

namespace Cert.KernelIdeal.Blocks

open Cert.KernelIdeal Cert.KernelIdeal.Gen Cert.KernelIdeal.Value Cert.PairSpec
open Idealize.ShloMosaic Idealize.ShloMosaic.TcCoe Idealize.SL.Sem Idealize.ShloMosaic.ValueIdx Idealize.ShloMosaic.Tactic
open Idealize.ShloMosaic.Pipeline (Dat)

variable (m : (ℓ : Loc nD τ sig) → Buf (Elt Ideal) ℓ) (ρ : Dev nD → PrngReg)

/-- What the body leaves in the output's staging buffer is `pairs` of its input block: every slab it stores is a slab
    of that one function, and the slabs cover the block. -/
theorem out_block (c : Dev nD) (i : grid0.Coords) (arg1 : Memref sig .tc .vmem S512x32x16 .f32) (harg1 : arg1.IsWhole)
    (arg2 : Memref sig .tc .vmem S512x496 .f32) (harg2 : arg2.IsWhole) (x0 : Vec Ideal S512x32x16 .f32) :
    out0_A_1 (F := Ideal) c i arg1 harg1 arg2 harg2 x0 = pairs x0 := by
  funext y
  unfold out0_A_1
  rw [View.read_writes_eq_canon _ _ _ (cover0_A_1 c i arg1 harg1 arg2 harg2 x0)]
  refine View.canon_apply_of_pieces (pairs x0) _ ?_ y (cover0_A_1 c i arg1 harg1 arg2 harg2 x0 y)
  unfold kernelRun0_A
  dsimp only
  sl_unfold_run_names
  simp only [View.readAt_eq_ld, harg1.read_unread]
  -- the last slab (one column, nothing repeated) is stored last and listed first
  refine List.forall_mem_cons.2 ⟨?_, ?_⟩
  · dsimp only
    exact fun x => last_piece _ _ (by decide) (by decide) x0 (by decide) (by decide) (by decide) (by decide) (.inl rfl) rfl x
  -- the other thirty: smaller field i, width 31 - i, first column slabStart i, all read off the store's rectangle
  repeat' (refine List.forall_mem_cons.2 ⟨?_, ?_⟩)
  all_goals first
    | (dsimp only
       exact fun x => slab_piece _ _ _ (by decide) (by decide) x0 (by decide) (by decide) (by decide) (by decide) (by decide)
         (.inl rfl) rfl x)
    | (intro p hp; cases hp)

end Cert.KernelIdeal.Blocks

end
-- ==== Proof.PairRows.lean ====
/-
  `pairs` works row by row: an entry of `pairs x` at row r depends on row r of x only.  So if one row of an array
  x0 is a row of an array X (every field, every embedding position), then `pairs x0` at that row of x0 is `pairs X`
  at that row of X, column for column.  This is what lets a block of 512 rows be treated on its own.
-/
import proofs.«137883_j86517821214535_2_alg».proof.Proof.PairSpec

noncomputable section

namespace Cert.PairSpec

open Idealize.ShloMosaic Idealize.ShloMosaic.ValueIdx

theorem pairs_rows {B B' : ℕ} (X : (⟨3, ![B, 32, 16]⟩ : Shape).Idx → EReal) (x0 : (⟨3, ![B', 32, 16]⟩ : Shape).Idx → EReal)
    (j : (⟨2, ![B', 496]⟩ : Shape).Idx) (i : (⟨2, ![B, 496]⟩ : Shape).Idx)
    (hx : ∀ (f : Fin 32) (d : Fin 16), x0 (ix3 (j 0) f d) = X (ix3 (i 0) f d))
    (h1 : (i 1).val = (j 1).val) :
    pairs x0 j = pairs X i := by
  unfold pairs dot16
  have e : (i 1 : Fin 496) = j 1 := Fin.ext h1
  rw [e]
  exact Finset.sum_congr rfl fun d _ => by rw [hx, hx]

end Cert.PairSpec

end
-- ==== Proof.KernelArray.lean ====
/-
  From the blocks to the array.  Grid point t stages rows 512 t … 512 t + 511 of the argument (all 32 fields, all 16
  embedding positions) and writes back rows 512 t … 512 t + 511 of the result (all 496 columns).  What it writes is
  `pairs` of its input block (`out_block`), and `pairs` works row by row (`pairs_rows`), so it is block t of `pairs`
  of the whole argument (`flushed_eq`).  Row r of the result lies in block r / 512, so the 32 blocks cover the result
  (`cover`) and the result array ends at `pairs` of the argument (`final`, `run`).
-/
import proofs.«137883_j86517821214535_2_alg».proof.Proof.KernelBlocks
import proofs.«137883_j86517821214535_2_alg».proof.Proof.PairRows

noncomputable section

namespace Cert.KernelIdeal.Blocks

open Cert.KernelIdeal Cert.KernelIdeal.Gen Cert.KernelIdeal.Value Cert.PairSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 32 grid points: both windows move along the row axis with the point and
    stay at block 0 on every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- WHAT POINT `t` WRITES BACK is block `t` of `pairs` of the argument array. -/
theorem flushed_eq (c : Dev nD) (t : Fin cfg0.N) :
    (dats m 0 c).flushed 1 t
      = ((cfg0.win 1).blk t).view.read (Elt Ideal) (pairs (m ((c : Thread nD τ).loc main_arg0))) := by
  rw [flushed1_A, out_block]
  obtain ⟨e00, e01, e02, e10, e11⟩ := idx_facts t
  funext j
  show pairs (iblk m c 0 t) j = pairs (m ((c : Thread nD τ).loc main_arg0)) (((cfg0.win 1).blk t).view.emb j)
  refine pairs_rows _ _ j _ (fun f d => ?_) ?_
  · show V m c main_arg0 (((cfg0.win 0).blk t).view.emb (ix3 (j 0) f d)) = _
    refine congrArg (m ((c : Thread nD τ).loc main_arg0)) (funext fun a => Fin.ext ?_)
    match a with
    | ⟨0, _⟩ =>
      show win0_0.index t (0 : Fin 3) * 512 + 1 * (j 0).val = win0_1.index t (0 : Fin 2) * 512 + 1 * (j 0).val
      rw [e00, e10]
    | ⟨1, _⟩ => show win0_0.index t (1 : Fin 3) * 32 + 1 * f.val = f.val; rw [e01]; omega
    | ⟨2, _⟩ => show win0_0.index t (2 : Fin 3) * 16 + 1 * d.val = d.val; rw [e02]; omega
  · show win0_1.index t (1 : Fin 2) * 496 + 1 * (j 1).val = (j 1).val
    rw [e11]; omega

/-- An index of the result is in point `t`'s block iff each coordinate is in the block's range on its axis. -/
theorem mem_blk (t : Fin cfg0.N) (i : S16384x496.Idx) :
    i ∈ ((cfg0.win 1).blk t).view.set ↔ ∀ a : Fin 2, win0_1.index t a * S512x496.size a ≤ (i a).val
      ∧ (i a).val < win0_1.index t a * S512x496.size a + S512x496.size a := by
  show i ∈ ((View.whole main_v0).slice (win0_1.rect t)).set ↔ _
  rw [View.set_slice_whole, Rect.mem_set_unit]
  exact Iff.rfl

/-- Every index of the result is in some point's block: row r is in block r / 512. -/
theorem cover (i : S16384x496.Idx) :
    ∃ t : Fin cfg0.N, (cfg0.win 1).flush t = true ∧ i ∈ ((cfg0.win 1).blk t).view.set := by
  have hN : cfg0.N = 32 := N_0
  have hi0 : (i 0).val < 16384 := (i 0).isLt
  have hi1 : (i 1).val < 496 := (i 1).isLt
  let t : Fin cfg0.N := ⟨(i 0).val / 512, by rw [hN]; omega⟩
  obtain ⟨_, _, _, e10, e11⟩ := idx_facts t
  have ht : t.val = (i 0).val / 512 := rfl
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    rw [e10, ht]; omega
  | ⟨1, _⟩ =>
    show win0_1.index t (1 : Fin 2) * 496 ≤ (i 1).val ∧ (i 1).val < win0_1.index t (1 : Fin 2) * 496 + 496
    rw [e11]; omega

/-- THE RESULT ARRAY after the run is `pairs` of the argument array. -/
theorem final (c : Dev nD) :
    (dats m 0 c).arrAt 1 cfg0.N = pairs (m ((c : Thread nD τ).loc main_arg0)) :=
  (dats m 0 c).arrAt_eq_of_cover 1 (pairs (m ((c : Thread nD τ).loc main_arg0))) (fun t _ => flushed_eq m c t) cover

/-- The kernel's run, read: the result at `pairs` of the argument, the argument unchanged. -/
theorem run : θ_run defs (onTc (τ := τ) (main (F := Ideal))) ⟨m, fun _ => 0, ρ⟩ fun r => ∀ c : Dev nD,
      r.2.mem ((c : Thread nD τ).loc main_v0) = pairs (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Blocks

end
-- ==== Proof.ReferenceRun.lean ====
/-
  The reference program's @main, read as the list of its twenty host operations, and its run: every weakly fair
  execution terminates with the result buffer at the operations' composed term of the argument array, the argument
  unchanged.  The composed term is named `pairTerm`: two gathers of the argument along its field axis (the start
  indices the two constant tables of 496 words, each passed through jnp's negative-index wrap `select (idx < 0) (idx + 32) idx`
  whose condition is the constant `false`), their product, and the sum of the product over the embedding axis from zero.
-/
import proofs.«137883_j86517821214535_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The gather's dimension numbers: result axes 0 and 2 are the operand's axes 0 and 2 whole, operand axis 1 is
    collapsed and started at the index array's word. -/
abbrev gd := gather_S16384x32x16_S496x1_S16384x496x16_02_1_n_n_1_1_16384116

/-- @main's 20 operations, in order. -/
abbrev ops : List (HloOp τ sig (Elt F)) :=
  [ nullary main_c (fun i => lit0 (S496.rowMajor i)),
    nullary main_c_0 (constantI S496 1 0#1),
    nullary main_c_1 (fun i => lit1 (S496.rowMajor i)),
    nullary main_c_2 (constantI S496 1 0#1),
    nullary main_c_3 (constantI S_ 32 32#32),
    unary main_c_3 main_v0 (broadcastInDim S496 ![] bcast_S_S496 : (⟨S_, .i32⟩ : BufTy).Contents (Elt F) → (⟨S496, .i32⟩ : BufTy).Contents (Elt F)),
    binary main_c main_v0 main_v1 (addi : (⟨S496, .i32⟩ : BufTy).Contents (Elt F) → (⟨S496, .i32⟩ : BufTy).Contents (Elt F) → (⟨S496, .i32⟩ : BufTy).Contents (Elt F)),
    ternary main_c_0 main_v1 main_c main_v2 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v2 main_v3 (broadcastInDim S496x1 ![0] bcast_S496_S496x1_0 : (⟨S496, .i32⟩ : BufTy).Contents (Elt F) → (⟨S496x1, .i32⟩ : BufTy).Contents (Elt F)),
    binary main_arg0 main_v3 main_v4 ((fun x i => Host.gather gd x i) : (⟨S16384x32x16, .f32⟩ : BufTy).Contents (Elt F) → (⟨S496x1, .i32⟩ : BufTy).Contents (Elt F) → (⟨S16384x496x16, .f32⟩ : BufTy).Contents (Elt F)),
    nullary main_c_4 (constantI S_ 32 32#32),
    unary main_c_4 main_v5 (broadcastInDim S496 ![] bcast_S_S496 : (⟨S_, .i32⟩ : BufTy).Contents (Elt F) → (⟨S496, .i32⟩ : BufTy).Contents (Elt F)),
    binary main_c_1 main_v5 main_v6 (addi : (⟨S496, .i32⟩ : BufTy).Contents (Elt F) → (⟨S496, .i32⟩ : BufTy).Contents (Elt F) → (⟨S496, .i32⟩ : BufTy).Contents (Elt F)),
    ternary main_c_2 main_v6 main_c_1 main_v7 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v7 main_v8 (broadcastInDim S496x1 ![0] bcast_S496_S496x1_0 : (⟨S496, .i32⟩ : BufTy).Contents (Elt F) → (⟨S496x1, .i32⟩ : BufTy).Contents (Elt F)),
    binary main_arg0 main_v8 main_v9 ((fun x i => Host.gather gd x i) : (⟨S16384x32x16, .f32⟩ : BufTy).Contents (Elt F) → (⟨S496x1, .i32⟩ : BufTy).Contents (Elt F) → (⟨S16384x496x16, .f32⟩ : BufTy).Contents (Elt F)),
    binary main_v4 main_v9 main_v10 (mulf : (⟨S16384x496x16, .f32⟩ : BufTy).Contents (Elt F) → (⟨S16384x496x16, .f32⟩ : BufTy).Contents (Elt F) → (⟨S16384x496x16, .f32⟩ : BufTy).Contents (Elt F)),
    nullary main_cst (constant S_ .f32 0x00000000#32),
    binary main_v10 main_cst main_v11 ((fun x v => Host.reduceAdd x v reducesTo_S16384x496x16_S16384x496_d2 h_S_) : (⟨S16384x496x16, .f32⟩ : BufTy).Contents (Elt F) → (⟨S_, .f32⟩ : BufTy).Contents (Elt F) → (⟨S16384x496, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
   unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   binary_bufs_sub .., nullary_bufs_sub .., binary_bufs_sub ..⟩

/-- The start indices of one gather: the table's words, wrapped as jnp wraps a negative index (never taken: the
    condition array is the constant `false`), as a column. -/
def startIdx (tbl : Fin 496 → BitVec 32) : IVec S496x1 32 :=
  broadcastInDim S496x1 ![0] bcast_S496_S496x1_0
    (select (constantI S496 1 0#1)
      (addi (fun i => tbl (S496.rowMajor i)) (broadcastInDim S496 ![] bcast_S_S496 (constantI S_ 32 32#32)))
      (fun i => tbl (S496.rowMajor i)))

/-- The operations' composed term of the argument array. -/
def pairTerm (x : FVec F S16384x32x16 .f32) : FVec F S16384x496 .f32 :=
  Host.reduceAdd (mulf (Host.gather gd x (startIdx lit0)) (Host.gather gd x (startIdx lit1)))
    (constant S_ .f32 0x00000000#32) reducesTo_S16384x496x16_S16384x496_d2 h_S_

/-- On every device, for any float values, from any memory with zero counters: every weakly fair execution of @main
    terminates with the result at `pairTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = pairTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.ReferencePairs.lean ====
/-
  The reference's result term is `pairs` of its argument, at the exact values.

  Each gather reads the argument at (b, f, d), where f is its start word for column p — the table's word (the
  negative-index wrap's condition is the constant `false`, so the word is untouched), taken signed and clamped into
  0 … 31 (`gather_field`, `startIdx_apply`); the two gathers' product is summed over the embedding axis from the
  initial value zero, which at the exact values is the plain sum: the inner product of the two fields pair p names.
-/
import proofs.«137883_j86517821214535_2_alg».proof.Proof.ReferenceRun
import proofs.«137883_j86517821214535_2_alg».proof.Proof.PairSpec
import Idealize.ShloMosaic.PureOps.Ideal.Laws
import Idealize.ShloMosaic.Lib.ValueIdx
import Idealize.ShloMosaic.Lib.Pipeline.Value

noncomputable section

namespace Cert.ReferenceIdeal.RefRun

open Cert.ReferenceIdeal Cert.ReferenceIdeal.Gen Cert.PairSpec Idealize.ShloMosaic Idealize.ShloMosaic.ValueIdx

/-- The gather reads its operand at (b, f, d): axes 0 and 2 pass through, axis 1 is the start word of column `p`,
    signed and clamped into 0 … 31. -/
theorem gather_field {α : Type} (x : S16384x32x16.Idx → α) (idx : IVec S496x1 32) (b : Fin 16384) (p : Fin 496) (d : Fin 16)
    (f : Fin 32) (hf : f.val = min (idx (ix2 p (0 : Fin 1))).toInt.toNat 31) :
    Host.gather gd x idx (ix3 b p d) = x (ix3 b f d) := by
  unfold Host.gather
  refine congrArg x (funext fun a => Fin.ext ?_)
  match a with
  | ⟨0, _⟩ =>
    simp [GatherDims.operandIdx, GatherDims.start, GatherDims.offCoord, GatherDims.batchCoord, gd,
      gather_S16384x32x16_S496x1_S16384x496x16_02_1_n_n_1_1_16384116, GatherDims.sKept, Shape.kept]
    rfl
  | ⟨1, _⟩ =>
    simp [GatherDims.operandIdx, GatherDims.start, GatherDims.offCoord, GatherDims.batchCoord, gd,
      gather_S16384x32x16_S496x1_S16384x496x16_02_1_n_n_1_1_16384116, GatherDims.sKept, Shape.kept]
    rw [hf]
    refine congrArg (fun k => min (idx k).toInt.toNat 31) (funext fun k => ?_)
    match k with
    | ⟨0, _⟩ => rfl
    | ⟨1, _⟩ => rfl
  | ⟨2, _⟩ =>
    simp [GatherDims.operandIdx, GatherDims.start, GatherDims.offCoord, GatherDims.batchCoord, gd,
      gather_S16384x32x16_S496x1_S16384x496x16_02_1_n_n_1_1_16384116, GatherDims.sKept, Shape.kept]
    rfl

/-- The start word of column `p` is the table's word `p`: the wrap is not taken. -/
theorem startIdx_apply (tbl : Fin 496 → BitVec 32) (p : Fin 496) : startIdx tbl (ix2 p (0 : Fin 1)) = tbl p := by
  unfold startIdx
  refine (broadcastInDim_apply _ bcast_S496_S496x1_0 _ (ix2 p (0 : Fin 1)) (ix1 p) ?_).trans ?_
  · intro a
    match a with
    | ⟨0, _⟩ => exact (if_neg (by decide : ¬ (496 : ℕ) = 1)).symm
  · rw [select_apply]
    show Scalar.select 0#1 _ _ = _
    rw [select_zero]
    exact congrArg tbl (Fin.ext (Shape.rowMajor_val_one _))

/-- THE REFERENCE'S TERM IS `pairs`. -/
theorem pairTerm_eq (x : FVec Ideal S16384x32x16 .f32) : pairTerm (F := Ideal) x = pairs x := by
  funext j
  obtain ⟨b, p, rfl⟩ : ∃ (b : Fin 16384) (p : Fin 496), j = ix2 b p := ⟨j 0, j 1, eq_ix2 j⟩
  have hR : S16384x496x16.Reduces [2] S16384x496 := by decide
  unfold pairTerm
  show Ideal.hostReduceAdd reducesTo_S16384x496x16_S16384x496_d2 _ _ (ix2 b p) = _
  rw [Ideal.hostReduceAdd_single reducesTo_S16384x496x16_S16384x496_d2 hR]
  rw [constant_apply, Ideal.ofBits_zero_f32, zero_add]
  unfold pairs dot16
  refine Finset.sum_congr rfl fun (d : Fin 16) _ => ?_
  have hl : hR.lift (ix2 b p) d = ix3 b p d := by
    funext a
    match a with
    | ⟨0, _⟩ => rfl
    | ⟨1, _⟩ => rfl
    | ⟨2, _⟩ => rfl
  rw [hl]
  show Host.gather gd x (startIdx lit0) (ix3 b p d) * Host.gather gd x (startIdx lit1) (ix3 b p d)
    = x (ix3 b (rowOf p) d) * x (ix3 b (colOf p) d)
  rw [gather_field x (startIdx lit0) b p d (rowOf p) (by rw [startIdx_apply]; rfl),
    gather_field x (startIdx lit1) b p d (colOf p) (by rw [startIdx_apply]; rfl)]

end Cert.ReferenceIdeal.RefRun

end
-- ==== Proof.lean ====
/-
  The inner products of all pairs of fields: the kernel against the jnp reference, at the exact values.

  Both programs take x of shape [16384, 32, 16] (rows, fields, an embedding of 16 numbers per field) and return, for
  every row b and every pair of fields i < j — the 496 pairs in the order (0,1), (0,2), …, (0,31), (1,2), …, (30,31) —
  the inner product over the embedding axis of fields i and j of row b (`PairSpec.pairs`).

  The kernel takes 512 rows per grid point; for each smaller field i it multiplies field i, repeated, into the fields
  i + 1 … 31, sums over the embedding axis and stores the 31 - i results at their consecutive columns (SlabDot,
  KernelBlocks); the 32 blocks of 512 rows cover the result (KernelArray).  The reference gathers, for every pair, the
  two fields its two constant tables name, multiplies them and sums over the embedding axis from zero (ReferenceRun,
  ReferencePairs).  The one fact that joins the two sides is that the tables list the pairs in the kernel's column
  order (`PairSpec.slab_fields`).  Products and sums are taken in the same order on both sides, so no law of the
  extended reals is used and the inputs' finiteness is never opened; the ideal pass rewrote nothing, so there is
  nothing to preserve.
-/
import proofs.«137883_j86517821214535_2_alg».proof.Defs
import proofs.«137883_j86517821214535_2_alg».proof.Proof.Gen.Kernel
import proofs.«137883_j86517821214535_2_alg».proof.Proof.Gen.Kernel.Frame
import proofs.«137883_j86517821214535_2_alg».proof.Proof.Gen.KernelIdeal
import proofs.«137883_j86517821214535_2_alg».proof.Proof.Gen.KernelIdeal.Frame
import proofs.«137883_j86517821214535_2_alg».proof.Proof.Gen.ReferenceIdeal
import proofs.«137883_j86517821214535_2_alg».proof.Proof.Gen.Pre_finite_inputs
import proofs.«137883_j86517821214535_2_alg».proof.Proof.KernelArray
import proofs.«137883_j86517821214535_2_alg».proof.Proof.ReferencePairs
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its argument alone: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the argument, the kernel's result array ends at `pairs` of the argument (KernelArray) and
    the reference's at its composed term of the same argument (ReferenceRun), which is `pairs` of it (ReferencePairs). -/
theorem algebraic : Cert.algebraic_KernelIdeal_ReferenceIdeal := by
  intro m ρ m' ρ' _ hagree
  refine ⟨fun c => Cert.PairSpec.pairs (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.pairTerm_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
